-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x256 : Shape := ⟨3, ![256, 32, 256]⟩
abbrev S_ : Shape := ⟨0, ![]⟩

class Facts : Prop where
  bcast_S_S256x32x256 : S_.BroadcastsInDim S256x32x256 (![] : Fin 0 → Fin S256x32x256.rank)
  reducesTo_S256x32x256_S_d0_1_2 : S256x32x256.ReducesTo [0, 1, 2] S_
  h_S_ : 0 < S_.numel

variable [Facts]

def fn {F : FTy → Type} [FloatOps F] (main_arg0 : FVec F S256x32x256 .f32) (main_arg1 : FVec F S256x32x256 .f32) : IVec S_ 1 :=
  let main_v0 : FVec F S256x32x256 .f32 := Host.absf main_arg0
  let main_cst : FVec F S_ .f32 := constant S_ .f32 0x7F800000#32
  let main_v1 : FVec F S256x32x256 .f32 := broadcastInDim S256x32x256 ![] bcast_S_S256x32x256 main_cst
  let main_v2 : IVec S256x32x256 1 := cmpf .olt main_v0 main_v1
  let main_c : IVec S_ 1 := constantI S_ 1 1#1
  let main_v3 : IVec S_ 1 := (fun x v => Host.reduce IntOp.andi x v reducesTo_S256x32x256_S_d0_1_2 h_S_) main_v2 main_c
  let main_v4 : FVec F S256x32x256 .f32 := Host.absf main_arg1
  let main_cst_0 : FVec F S_ .f32 := constant S_ .f32 0x7F800000#32
  let main_v5 : FVec F S256x32x256 .f32 := broadcastInDim S256x32x256 ![] bcast_S_S256x32x256 main_cst_0
  let main_v6 : IVec S256x32x256 1 := cmpf .olt main_v4 main_v5
  let main_c_1 : IVec S_ 1 := constantI S_ 1 1#1
  let main_v7 : IVec S_ 1 := (fun x v => Host.reduce IntOp.andi x v reducesTo_S256x32x256_S_d0_1_2 h_S_) main_v6 main_c_1
  let main_v8 : IVec S_ 1 := andi main_v3 main_v7
  main_v8
-- ==== Kernel.lean ====
abbrev S256x32x256 : Shape := ⟨3, ![256, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S1024x256 : Shape := ⟨2, ![1024, 256]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩
abbrev S1 : Shape := ⟨1, ![1]⟩

abbrev nBuf : Space → Nat
  | .hbm => 17
  | .vmem => 7
  | .smem => 0
  | _ => 0

abbrev bufTy : (tb : Table) → Fin (tcTables nBuf tb) → BufTy
  | .hbm, ⟨0, _⟩ => ⟨S256x32x256, .f32⟩
  | .hbm, ⟨1, _⟩ => ⟨S256x32x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .i1⟩
  | .hbm, ⟨9, _⟩ => ⟨S8192, .f32⟩
  | .hbm, ⟨10, _⟩ => ⟨S8192x1, .f32⟩
  | .hbm, ⟨11, _⟩ => ⟨S8192x256, .bf16⟩
  | .hbm, ⟨12, _⟩ => ⟨S8192x256, .bf16⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1x1, .f32⟩
  | _, _ => ⟨S256x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  shapeCasts_S256x32x256_S8192x256 : S256x32x256.ShapeCasts S8192x256
  reducesTo_S8192x256_S8192_d1 : S8192x256.ReducesTo [1] S8192
  h_S_ : 0 < S_.numel
  bcast_S_S8192 : S_.BroadcastsInDim S8192 (![] : Fin 0 → Fin S8192.rank)
  shapeCasts_S8192_S8192x1 : S8192.ShapeCasts S8192x1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1_d0_w32 : S1024x1.Iotas .tc 32 [0]
  iota_S1x1024_d1_w32 : S1x1024.Iotas .tc 32 [1]
  natLt_1_32 : 1 < 32
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v7) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x32x256 : Shape := ⟨3, ![256, 32, 256]⟩
abbrev S_ : Shape := ⟨0, ![]⟩
abbrev S256x32 : Shape := ⟨2, ![256, 32]⟩
abbrev S256x32x32 : Shape := ⟨3, ![256, 32, 32]⟩
abbrev S256x32x1 : Shape := ⟨3, ![256, 32, 1]⟩
abbrev S256x32x256x32 : Shape := ⟨4, ![256, 32, 256, 32]⟩
abbrev S256x256 : Shape := ⟨2, ![256, 256]⟩
abbrev S256x32x1x1 : Shape := ⟨4, ![256, 32, 1, 1]⟩
abbrev S256x1x256x1 : Shape := ⟨4, ![256, 1, 256, 1]⟩

abbrev nBuf : Space → Nat
  | .hbm => 68
  | .vmem => 0
  | .smem => 0
  | _ => 0

abbrev bufTy : (tb : Table) → Fin (tcTables nBuf tb) → BufTy
  | .hbm, ⟨0, _⟩ => ⟨S256x32x256, .f32⟩
  | .hbm, ⟨1, _⟩ => ⟨S256x32x256, .f32⟩
  | .hbm, ⟨2, _⟩ => ⟨S_, .f32⟩
  | .hbm, ⟨3, _⟩ => ⟨S256x32, .f32⟩
  | .hbm, ⟨4, _⟩ => ⟨S_, .f32⟩
  | .hbm, ⟨5, _⟩ => ⟨S256x32, .f32⟩
  | .hbm, ⟨6, _⟩ => ⟨S256x32, .i1⟩
  | .hbm, ⟨7, _⟩ => ⟨S256x32, .f32⟩
  | .hbm, ⟨8, _⟩ => ⟨S256x32x32, .f32⟩
  | .hbm, ⟨9, _⟩ => ⟨S_, .f32⟩
  | .hbm, ⟨10, _⟩ => ⟨S256x32x32, .f32⟩
  | .hbm, ⟨11, _⟩ => ⟨S256x32x32, .f32⟩
  | .hbm, ⟨12, _⟩ => ⟨S_, .f32⟩
  | .hbm, ⟨13, _⟩ => ⟨S256x32x32, .f32⟩
  | .hbm, ⟨14, _⟩ => ⟨S256x32x32, .f32⟩
  | .hbm, ⟨15, _⟩ => ⟨S_, .f32⟩
  | .hbm, ⟨16, _⟩ => ⟨S256x32x32, .f32⟩
  | .hbm, ⟨17, _⟩ => ⟨S256x32x32, .f32⟩
  | .hbm, ⟨18, _⟩ => ⟨S_, .f32⟩
  | .hbm, ⟨19, _⟩ => ⟨S256x32x32, .f32⟩
  | .hbm, ⟨20, _⟩ => ⟨S256x32x32, .i1⟩
  | .hbm, ⟨21, _⟩ => ⟨S_, .f32⟩
  | .hbm, ⟨22, _⟩ => ⟨S_, .f32⟩
  | .hbm, ⟨23, _⟩ => ⟨S256x32x32, .f32⟩
  | .hbm, ⟨24, _⟩ => ⟨S256x32x32, .f32⟩
  | .hbm, ⟨25, _⟩ => ⟨S256x32x1, .f32⟩
  | .hbm, ⟨26, _⟩ => ⟨S256x32x32, .f32⟩
  | .hbm, ⟨27, _⟩ => ⟨S256x32x32, .f32⟩
  | .hbm, ⟨28, _⟩ => ⟨S_, .f32⟩
  | .hbm, ⟨29, _⟩ => ⟨S_, .f32⟩
  | .hbm, ⟨30, _⟩ => ⟨S256x32x256x32, .f32⟩
  | .hbm, ⟨31, _⟩ => ⟨S_, .f32⟩
  | .hbm, ⟨32, _⟩ => ⟨S256x32x256x32, .f32⟩
  | .hbm, ⟨33, _⟩ => ⟨S256x32x256x32, .f32⟩
  | .hbm, ⟨34, _⟩ => ⟨S_, .f32⟩
  | .hbm, ⟨35, _⟩ => ⟨S256x32x256x32, .f32⟩
  | .hbm, ⟨36, _⟩ => ⟨S256x32x256x32, .f32⟩
  | .hbm, ⟨37, _⟩ => ⟨S_, .f32⟩
  | .hbm, ⟨38, _⟩ => ⟨S256x32x256x32, .f32⟩
  | .hbm, ⟨39, _⟩ => ⟨S256x32x256x32, .f32⟩
  | .hbm, ⟨40, _⟩ => ⟨S_, .f32⟩
  | .hbm, ⟨41, _⟩ => ⟨S256x32x256x32, .f32⟩
  | .hbm, ⟨42, _⟩ => ⟨S256x32x256x32, .i1⟩
  | .hbm, ⟨43, _⟩ => ⟨S_, .f32⟩
  | .hbm, ⟨44, _⟩ => ⟨S_, .f32⟩
  | .hbm, ⟨45, _⟩ => ⟨S256x32x256x32, .f32⟩
  | .hbm, ⟨46, _⟩ => ⟨S256x32x256x32, .f32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S256x256, .i32⟩
  | .hbm, ⟨51, _⟩ => ⟨S256x256, .i32⟩
  | .hbm, ⟨52, _⟩ => ⟨S256x256, .i1⟩
  | .hbm, ⟨53, _⟩ => ⟨S256x256, .f32⟩
  | .hbm, ⟨54, _⟩ => ⟨S_, .f32⟩
  | .hbm, ⟨55, _⟩ => ⟨S256x256, .f32⟩
  | .hbm, ⟨56, _⟩ => ⟨S256x256, .f32⟩
  | .hbm, ⟨57, _⟩ => ⟨S256x32x1x1, .f32⟩
  | .hbm, ⟨58, _⟩ => ⟨S256x32x256x32, .f32⟩
  | .hbm, ⟨59, _⟩ => ⟨S256x32x256x32, .f32⟩
  | .hbm, ⟨60, _⟩ => ⟨S256x1x256x1, .f32⟩
  | .hbm, ⟨61, _⟩ => ⟨S256x32x256x32, .f32⟩
  | .hbm, ⟨62, _⟩ => ⟨S256x32x256x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S256x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_call2_cst : Ref sig .tc := ⟨.hbm, 37, rfl⟩
abbrev main_call2_v0 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_call3_v0 : Ref sig .tc := ⟨.hbm, 44, rfl⟩
abbrev main_call3_v1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_11 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  reducesTo_S256x32x256_S256x32_d2 : S256x32x256.ReducesTo [2] S256x32
  h_S_ : 0 < S_.numel
  bcast_S_S256x32 : S_.BroadcastsInDim S256x32 (![] : Fin 0 → Fin S256x32.rank)
  bcast_S_S256x32x32 : S_.BroadcastsInDim S256x32x32 (![] : Fin 0 → Fin S256x32x32.rank)
  bcast_S256x32_S256x32x1_0_1 : S256x32.BroadcastsInDim S256x32x1 (![0, 1] : Fin 2 → Fin S256x32x1.rank)
  bcast_S256x32x1_S256x32x32_0_1_2 : S256x32x1.BroadcastsInDim S256x32x32 (![0, 1, 2] : Fin 3 → Fin S256x32x32.rank)
  reducesTo_S256x32x32_S_d0_1_2 : S256x32x32.ReducesTo [0, 1, 2] S_
  bcast_S_S256x32x256x32 : S_.BroadcastsInDim S256x32x256x32 (![] : Fin 0 → Fin S256x32x256x32.rank)
  bcast_S_S256x256 : S_.BroadcastsInDim S256x256 (![] : Fin 0 → Fin S256x256.rank)
  bcast_S256x32_S256x32x1x1_0_1 : S256x32.BroadcastsInDim S256x32x1x1 (![0, 1] : Fin 2 → Fin S256x32x1x1.rank)
  bcast_S256x32x1x1_S256x32x256x32_0_1_2_3 : S256x32x1x1.BroadcastsInDim S256x32x256x32 (![0, 1, 2, 3] : Fin 4 → Fin S256x32x256x32.rank)
  bcast_S256x256_S256x1x256x1_0_2 : S256x256.BroadcastsInDim S256x1x256x1 (![0, 2] : Fin 2 → Fin S256x1x256x1.rank)
  bcast_S256x1x256x1_S256x32x256x32_0_1_2_3 : S256x1x256x1.BroadcastsInDim S256x32x256x32 (![0, 1, 2, 3] : Fin 4 → Fin S256x32x256x32.rank)
  reducesTo_S256x32x256x32_S_d0_1_2_3 : S256x32x256x32.ReducesTo [0, 1, 2, 3] S_
  dot_S256x32x256_S256x32x256_S256x32x32_2_2_1_1_0_0_wf : DotDims.WF S256x32x256 S256x32x256 S256x32x32 [2] [2] [1] [1] [0] [0]
  dot_S256x32x256_S256x32x256_S256x32x256x32_2_2_01_01_n_n_wf : DotDims.WF S256x32x256 S256x32x256 S256x32x256x32 [2] [2] [0, 1] [0, 1] [] []

variable [Facts₀]

def dot_S256x32x256_S256x32x256_S256x32x32_2_2_1_1_0_0 : DotDims S256x32x256 S256x32x256 S256x32x32 where
  lhsContracting := [2]
  rhsContracting := [2]
  lhsNonContracting := [1]
  rhsNonContracting := [1]
  lhsBatch := [0]
  rhsBatch := [0]
  wf := dot_S256x32x256_S256x32x256_S256x32x32_2_2_1_1_0_0_wf
def dot_S256x32x256_S256x32x256_S256x32x256x32_2_2_01_01_n_n : DotDims S256x32x256 S256x32x256 S256x32x256x32 where
  lhsContracting := [2]
  rhsContracting := [2]
  lhsNonContracting := [0, 1]
  rhsNonContracting := [0, 1]
  lhsBatch := []
  rhsBatch := []
  wf := dot_S256x32x256_S256x32x256_S256x32x256x32_2_2_01_01_n_n_wf

class Facts : Prop extends Facts₀ where

variable [Facts]
-- ==== Proof.BatchWords.lean ====
/-
  Word arithmetic behind the batch index of a row or a column. A position below 2^31, held in a 32-bit word, is divided
  by the batch length 32 the way a floored division is lowered: the quotient rounded toward zero, less one when the
  signs of dividend and divisor differ and the remainder is not zero. On a nonnegative position that correction never
  fires and the word is the natural quotient. A tile's first position plus an offset inside the tile is the word of the
  natural sum, and two words of naturals below 2^32 are equal exactly when the naturals are.
-/
import Mathlib.Data.BitVec
import Idealize.ShloMosaic.PureOps.Float
import Idealize.ShloMosaic.Lib.WordArith
import Idealize.ShloMosaic.Lib.ValueIdx

namespace Cert.FragAlign.Words

open Idealize.ShloMosaic

/-- A natural below 2^31 has its top bit clear. -/
theorem msb_small (n : ℕ) (h : n < 2 ^ 31) : (BitVec.ofNat 32 n).msb = false := by
  rw [BitVec.msb_eq_false_iff_two_mul_lt]; simp; omega

/-- The signed quotient by 32 of a natural below 2^31 is the natural quotient. -/
theorem sdiv32 (n : ℕ) (h : n < 2 ^ 31) : (BitVec.ofNat 32 n).sdiv 32#32 = BitVec.ofNat 32 (n / 32) := by
  have hy : (32#32 : BitVec 32).msb = false := by decide
  rw [BitVec.sdiv_eq, msb_small n h, hy]
  apply BitVec.eq_of_toNat_eq
  simp
  omega

/-- The sign of the divisor 32 as the lowering computes it: the bit of `32 > 0` less the bit of `32 < 0`. -/
def sgn32 : BitVec 32 :=
  Scalar.subi (Scalar.extui (Scalar.cmpi .sgt 32#32 0#32)) (Scalar.extui (Scalar.cmpi .slt 32#32 0#32))

/-- The floored division by 32 as lowered, on one word. -/
def floorDiv32 (x : BitVec 32) : BitVec 32 :=
  Scalar.select
    (IntOp.andi
      (IntOp.cmpi .ne (IntOp.subi ((IntOp.cmpi .sgt x 0#32).setWidth 32) ((IntOp.cmpi .slt x 0#32).setWidth 32)) sgn32)
      (IntOp.cmpi .ne (IntOp.remsi .vector x 32#32) 0#32))
    (IntOp.subi (IntOp.divsi .vector x 32#32) 1#32)
    (IntOp.divsi .vector x 32#32)

/-- On a natural below 2^31 the lowered floored division by 32 is the natural quotient: a positive dividend has the
    divisor's sign, and zero has remainder zero, so the quotient is never lowered by one. -/
theorem floorDiv32_ofNat (n : ℕ) (h : n < 2 ^ 31) : floorDiv32 (BitVec.ofNat 32 n) = BitVec.ofNat 32 (n / 32) := by
  have hc : ¬ IntOp.SDivCorner (BitVec.ofNat 32 n) 32#32 :=
    fun hh => hh.elim (by decide) (fun hh => absurd hh.2 (by decide))
  have hd : IntOp.divsi .vector (BitVec.ofNat 32 n) 32#32 = BitVec.ofNat 32 (n / 32) := by
    unfold IntOp.divsi; rw [if_neg hc]; exact sdiv32 n h
  unfold floorDiv32
  rw [hd]
  rcases Nat.eq_zero_or_pos n with rfl | hpos
  · decide
  · have hi : (BitVec.ofNat 32 n).toInt = (n : ℤ) := WordArith.toInt_ofNat_small n h
    have h0 : (0#32 : BitVec 32).toInt = 0 := by decide
    have hgt : (0#32 : BitVec 32).slt (BitVec.ofNat 32 n) = true := by
      rw [BitVec.slt_iff_toInt_lt, hi, h0]; omega
    have hlt : (BitVec.ofNat 32 n).slt (0#32 : BitVec 32) = false := by
      rw [Bool.eq_false_iff]; intro hh
      rw [BitVec.slt_iff_toInt_lt, hi, h0] at hh; omega
    have hs : IntOp.cmpi .sgt (BitVec.ofNat 32 n) 0#32 = 1#1 := by
      show BitVec.ofBool ((0#32 : BitVec 32).slt (BitVec.ofNat 32 n)) = 1#1
      rw [hgt]; rfl
    have hl : IntOp.cmpi .slt (BitVec.ofNat 32 n) 0#32 = 0#1 := by
      show BitVec.ofBool ((BitVec.ofNat 32 n).slt (0#32 : BitVec 32)) = 0#1
      rw [hlt]; rfl
    rw [hs, hl]
    have hz : IntOp.cmpi .ne (IntOp.subi ((1#1 : BitVec 1).setWidth 32) ((0#1 : BitVec 1).setWidth 32)) sgn32 = 0#1 := by
      decide
    rw [hz]
    have ha : ∀ c : BitVec 1, IntOp.andi (0#1 : BitVec 1) c = 0#1 := fun c => by
      unfold IntOp.andi; exact BitVec.zero_and
    rw [ha]
    exact ValueIdx.select_zero _ _

/-- A tile's first position, `1024 · a`, plus an offset `p` inside the tile, as words: the word of `1024 · a + p`. -/
theorem tile_position (a p : ℕ) :
    IntOp.addi (Scalar.muli (BitVec.ofNat 32 a) 1024#32) (BitVec.ofNat 32 p) = BitVec.ofNat 32 (1024 * a + p) := by
  apply BitVec.eq_of_toNat_eq
  simp [Scalar.muli, IntOp.muli, IntOp.addi]
  omega

/-- Choosing by the equality bit of two words of naturals below 2^32 is choosing by the naturals' equality. -/
theorem select_eq_ofNat {α : Type} (a b : ℕ) (ha : a < 2 ^ 32) (hb : b < 2 ^ 32) (x y : α) :
    Scalar.select (IntOp.cmpi .eq (BitVec.ofNat 32 a) (BitVec.ofNat 32 b)) x y = if a = b then x else y := by
  by_cases hab : a = b
  · subst hab
    rw [if_pos rfl]
    have : IntOp.cmpi .eq (BitVec.ofNat 32 a) (BitVec.ofNat 32 a) = 1#1 := by
      show BitVec.ofBool (BitVec.ofNat 32 a == BitVec.ofNat 32 a) = 1#1
      rw [beq_self_eq_true]; rfl
    rw [this]; exact ValueIdx.select_one _ _
  · rw [if_neg hab]
    have hne : BitVec.ofNat 32 a ≠ BitVec.ofNat 32 b := fun hh => hab (by
      have := congrArg BitVec.toNat hh
      simp only [BitVec.toNat_ofNat] at this
      rw [Nat.mod_eq_of_lt ha, Nat.mod_eq_of_lt hb] at this; exact this)
    have : IntOp.cmpi .eq (BitVec.ofNat 32 a) (BitVec.ofNat 32 b) = 0#1 := by
      show BitVec.ofBool (BitVec.ofNat 32 a == BitVec.ofNat 32 b) = 0#1
      rw [beq_eq_false_iff_ne.mpr hne]; rfl
    rw [this]; exact ValueIdx.select_zero _ _

end Cert.FragAlign.Words
-- ==== Proof.GridSums.lean ====
/-
  Re-indexing finite sums over flattened positions. A position `R < m · n` is a pair `(x, y)` with `R = n · x + y`; a
  sum over positions is the double sum over pairs. The 64 tiles of an 8 × 8 grid, visited in row-major order, each
  summing its 1024 × 1024 entries, together sum every entry of the 8192 × 8192 matrix once. And a sum over
  (batch, face, batch', entity) of a term that takes one value on the diagonal `batch = batch'` and another off it is the
  diagonal's sum plus the sum of the off-diagonal term weighted by an indicator that vanishes on the diagonal. All of it
  holds in any commutative additive monoid; the last also uses `x · 0 = 0` and `x · 1 = x`, which hold for every
  extended real, infinite ones included.
-/
import Mathlib.Algebra.BigOperators.Fin
import Mathlib.Algebra.BigOperators.Ring.Finset
import Mathlib.Logic.Equiv.Fin.Basic
import Mathlib.Data.EReal.Basic

namespace Cert.FragAlign.Sums

open Finset

/-- The position `n · x + y` of the pair `(x, y)`. -/
def pos2 {m n N : ℕ} (h : m * n = N) (x : Fin m) (y : Fin n) : Fin N :=
  ⟨n * x.val + y.val, by
    subst h
    calc n * x.val + y.val < n * x.val + n := Nat.add_lt_add_left y.isLt _
      _ = n * (x.val + 1) := (Nat.mul_succ n x.val).symm
      _ ≤ n * m := Nat.mul_le_mul_left n x.isLt
      _ = m * n := Nat.mul_comm n m⟩

@[simp] theorem pos2_val {m n N : ℕ} (h : m * n = N) (x : Fin m) (y : Fin n) : (pos2 h x y).val = n * x.val + y.val := rfl

/-- A sum over positions is the double sum over pairs. -/
theorem sum_pos2 {M : Type*} [AddCommMonoid M] {m n N : ℕ} (h : m * n = N) (g : Fin N → M) :
    ∑ R : Fin N, g R = ∑ x : Fin m, ∑ y : Fin n, g (pos2 h x y) := by
  subst h
  calc ∑ R : Fin (m * n), g R = ∑ xy : Fin m × Fin n, g (finProdFinEquiv xy) := (finProdFinEquiv.sum_comp g).symm
    _ = ∑ xy : Fin m × Fin n, g (pos2 rfl xy.1 xy.2) :=
        Finset.sum_congr rfl fun xy _ => congrArg g (Fin.ext (by
          show xy.2.val + n * xy.1.val = n * xy.1.val + xy.2.val
          exact Nat.add_comm _ _))
    _ = ∑ x : Fin m, ∑ y : Fin n, g (pos2 rfl x y) := Fintype.sum_prod_type' fun x y => g (pos2 rfl x y)

/-- The tile row and tile column of the `t`-th tile in row-major order over an 8 × 8 grid. -/
def tileRow (t : ℕ) : Fin 8 := ⟨t / 8 % 8, Nat.mod_lt _ (by decide)⟩
def tileCol (t : ℕ) : Fin 8 := ⟨t % 8, Nat.mod_lt _ (by decide)⟩

/-- The 64 tiles, each summed over its 1024 × 1024 entries, sum the whole 8192 × 8192 matrix. -/
theorem sum_tiles {M : Type*} [AddCommMonoid M] (g : Fin 8192 → Fin 8192 → M) :
    ∑ t ∈ Finset.range 64, ∑ p : Fin 1024, ∑ q : Fin 1024,
        g (pos2 (by decide : 8 * 1024 = 8192) (tileRow t) p) (pos2 (by decide : 8 * 1024 = 8192) (tileCol t) q)
      = ∑ R : Fin 8192, ∑ C : Fin 8192, g R C := by
  have h88 : 8 * 8 = 64 := by decide
  have hK : 8 * 1024 = 8192 := by decide
  rw [Finset.sum_range fun t => ∑ p : Fin 1024, ∑ q : Fin 1024, g (pos2 hK (tileRow t) p) (pos2 hK (tileCol t) q)]
  rw [sum_pos2 h88]
  have hr : ∀ x y : Fin 8, tileRow (pos2 h88 x y).val = x := fun x y => Fin.ext (by
    show (8 * x.val + y.val) / 8 % 8 = x.val
    have := x.isLt; have := y.isLt; omega)
  have hc : ∀ x y : Fin 8, tileCol (pos2 h88 x y).val = y := fun x y => Fin.ext (by
    show (8 * x.val + y.val) % 8 = y.val
    have := x.isLt; have := y.isLt; omega)
  simp only [hr, hc]
  rw [sum_pos2 hK]
  refine Finset.sum_congr rfl fun x _ => ?_
  rw [Finset.sum_comm]
  refine Finset.sum_congr rfl fun p _ => ?_
  rw [sum_pos2 hK]

/-- A term that is `P` on the diagonal `k = b` and `N` off it: the diagonal's sum plus the sum of `N` weighted by an
    indicator `off` that is 0 on the diagonal and 1 off it. -/
theorem sum_diag_split {B Fc En : ℕ} (P : Fin B → Fin Fc → Fin En → EReal) (N : Fin B → Fin Fc → Fin B → Fin En → EReal)
    (off : Fin B → Fin B → EReal) (h0 : ∀ b, off b b = 0) (h1 : ∀ b k, b ≠ k → off b k = 1) :
    (∑ b : Fin B, ∑ f : Fin Fc, ∑ n : Fin En, P b f n) + (∑ b : Fin B, ∑ f : Fin Fc, ∑ k : Fin B, ∑ n : Fin En, N b f k n * off b k)
      = ∑ b : Fin B, ∑ f : Fin Fc, ∑ k : Fin B, ∑ n : Fin En, (if b = k then P b f n else N b f k n) := by
  rw [← Finset.sum_add_distrib]
  refine Finset.sum_congr rfl fun b _ => ?_
  rw [← Finset.sum_add_distrib]
  refine Finset.sum_congr rfl fun f _ => ?_
  have e : ∀ k : Fin B, ∑ n : Fin En, (if b = k then P b f n else N b f k n)
      = (if b = k then ∑ n : Fin En, P b f n else 0) + ∑ n : Fin En, N b f k n * off b k := fun k => by
    by_cases hk : b = k
    · subst hk
      rw [if_pos rfl]
      simp only [if_true, h0, mul_zero, Finset.sum_const_zero, add_zero]
    · rw [if_neg hk]
      simp only [if_neg hk, h1 b k hk, mul_one, zero_add]
  rw [Finset.sum_congr rfl fun k _ => e k, Finset.sum_add_distrib, Finset.sum_ite_eq]
  simp only [Finset.mem_univ, if_true]

end Cert.FragAlign.Sums
-- ==== Proof.Margin.lean ====
/-
  The loss both programs compute, on the extended reals, from the two argument arrays `X0` (faces) and `X1` (entities),
  each of shape [256 batches, 32 rows, 256 features].

  For face row `(b, f)` and entity row `(k, n)` let `s` be their inner product over the features. The clipped margin
  `hinge x` is `max x 0`, replaced by 0 where it equals 1. A face row's flag is 1 when the sum of its features is not 0 and
  0 otherwise. The same-batch term is `hinge (1 − 1·s) · flag`, taken at `k = b`; the other-batch term is
  `hinge (1 + 1·s) · flag`, weighted by `1 − [b = k]`, which is 0 on the diagonal and 1 off it. Since `x · 0 = 0` and
  `x · 1 = x` for every extended real, the sum of the same-batch terms plus the weighted sum of the other-batch terms
  is the single sum, over all `(b, f, k, n)`, of the term that uses the same-batch formula exactly when `b = k`.
-/
import Idealize.ShloMosaic.PureOps.Ideal
import Idealize.ShloMosaic.PureOps.IdealRules
import Idealize.ShloMosaic.PureOps.Ideal.Laws
import Idealize.ShloMosaic.Lib.ValueIdx
import proofs.«148889_j53231824667134_1_alg».proof.Proof.GridSums

noncomputable section

namespace Cert.FragAlign

open Idealize.ShloMosaic Idealize.ShloMosaic.ValueIdx

/-- The words of 0.0 and 1.0 read as extended reals. -/
abbrev zeroW : EReal := Ideal.ofBits .f32 0x00000000#32
abbrev oneW : EReal := Ideal.ofBits .f32 0x3F800000#32

theorem zeroW_eq : zeroW = 0 := Ideal.ofBits_zero_f32
theorem oneW_eq : oneW = 1 := IdealRules.sign_bit.ideal_onePat .f32

/-- The clipped margin: `max x 0`, replaced by 0 where it equals 1. -/
def hinge (x : EReal) : EReal :=
  Scalar.select (FloatOps.cmpf (F := Ideal) (φ := .f32) .oeq (max x zeroW) oneW) zeroW (max x zeroW)

/-- An argument array: [256 batches, 32 rows, 256 features] of extended reals. -/
abbrev Arr3 : Type := (⟨3, ![256, 32, 256]⟩ : Shape).Idx → EReal

/-- The inner product of face row `(b, f)` and entity row `(k, n)`. -/
def dot4 (X0 X1 : Arr3) (b : Fin 256) (f : Fin 32) (k : Fin 256) (n : Fin 32) : EReal :=
  ∑ d : Fin 256, X0 (ix3 b f d) * X1 (ix3 k n d)

/-- A face row's flag: 1 when the sum of its features (started from the zero word) is not zero, else 0. -/
def flag (X0 : Arr3) (b : Fin 256) (f : Fin 32) : EReal :=
  FloatOps.uitofp (F := Ideal) .f32 (FloatOps.cmpf (F := Ideal) (φ := .f32) .une (zeroW + ∑ d : Fin 256, X0 (ix3 b f d)) zeroW)

/-- The same-batch term. -/
def posTerm (X0 X1 : Arr3) (b : Fin 256) (f : Fin 32) (n : Fin 32) : EReal :=
  hinge (oneW - oneW * dot4 X0 X1 b f b n) * flag X0 b f

/-- The other-batch term, before its off-diagonal weight. -/
def negTerm (X0 X1 : Arr3) (b : Fin 256) (f : Fin 32) (k : Fin 256) (n : Fin 32) : EReal :=
  hinge (oneW + oneW * dot4 X0 X1 b f k n) * flag X0 b f

/-- The off-diagonal weight `1 − [b = k]`, the equality decided on 32-bit words. -/
def offDiag (b k : Fin 256) : EReal :=
  oneW - FloatOps.uitofp (F := Ideal) .f32 (IntOp.cmpi .eq (IntOp.addi (BitVec.ofNat 32 b.val) 0#32) (BitVec.ofNat 32 k.val))

theorem uitofp_one : (FloatOps.uitofp (F := Ideal) .f32 (1#1 : BitVec 1) : EReal) = 1 := by
  show (((1#1 : BitVec 1).toNat : ℝ) : EReal) = 1
  simp

theorem uitofp_zero : (FloatOps.uitofp (F := Ideal) .f32 (0#1 : BitVec 1) : EReal) = 0 := by
  show (((0#1 : BitVec 1).toNat : ℝ) : EReal) = 0
  simp

theorem offDiag_self (b : Fin 256) : offDiag b b = 0 := by
  unfold offDiag
  have h1 : IntOp.cmpi .eq (IntOp.addi (BitVec.ofNat 32 b.val) 0#32) (BitVec.ofNat 32 b.val) = 1#1 := by
    show BitVec.ofBool (BitVec.ofNat 32 b.val + 0#32 == BitVec.ofNat 32 b.val) = 1#1
    rw [BitVec.add_zero, beq_self_eq_true]; rfl
  rw [h1, oneW_eq, uitofp_one, ← EReal.coe_one, ← EReal.coe_sub, sub_self, EReal.coe_zero]

theorem offDiag_ne (b k : Fin 256) (h : b ≠ k) : offDiag b k = 1 := by
  unfold offDiag
  have hne : BitVec.ofNat 32 b.val + 0#32 ≠ BitVec.ofNat 32 k.val := fun hh => h (Fin.ext (by
    rw [BitVec.add_zero] at hh
    have := congrArg BitVec.toNat hh
    simp only [BitVec.toNat_ofNat] at this
    have hb := b.isLt; have hk := k.isLt
    omega))
  have h0 : IntOp.cmpi .eq (IntOp.addi (BitVec.ofNat 32 b.val) 0#32) (BitVec.ofNat 32 k.val) = 0#1 := by
    show BitVec.ofBool (BitVec.ofNat 32 b.val + 0#32 == BitVec.ofNat 32 k.val) = 0#1
    rw [beq_eq_false_iff_ne.mpr hne]; rfl
  rw [h0, oneW_eq, uitofp_zero, sub_zero]

/-- The one term: the same-batch formula exactly when `b = k`. -/
def cell4 (X0 X1 : Arr3) (b : Fin 256) (f : Fin 32) (k : Fin 256) (n : Fin 32) : EReal :=
  hinge (if b = k then oneW - oneW * dot4 X0 X1 b f k n else oneW + oneW * dot4 X0 X1 b f k n) * flag X0 b f

theorem cell4_eq (X0 X1 : Arr3) (b : Fin 256) (f : Fin 32) (k : Fin 256) (n : Fin 32) :
    cell4 X0 X1 b f k n = if b = k then posTerm X0 X1 b f n else negTerm X0 X1 b f k n := by
  unfold cell4
  by_cases h : b = k
  · subst h; rw [if_pos rfl, if_pos rfl]; rfl
  · rw [if_neg h, if_neg h]; rfl

/-- The loss before the final division: the single sum over all `(b, f, k, n)`. -/
def total (X0 X1 : Arr3) : EReal :=
  ∑ b : Fin 256, ∑ f : Fin 32, ∑ k : Fin 256, ∑ n : Fin 32, cell4 X0 X1 b f k n

/-- The same-batch sum plus the weighted other-batch sum, each started from the zero word, is the single sum. -/
theorem pos_add_neg (X0 X1 : Arr3) :
    (zeroW + ∑ b : Fin 256, ∑ f : Fin 32, ∑ n : Fin 32, posTerm X0 X1 b f n)
      + (zeroW + ∑ b : Fin 256, ∑ f : Fin 32, ∑ k : Fin 256, ∑ n : Fin 32, negTerm X0 X1 b f k n * offDiag b k)
      = total X0 X1 := by
  rw [zeroW_eq, zero_add, zero_add,
    Sums.sum_diag_split (posTerm X0 X1) (negTerm X0 X1) offDiag offDiag_self offDiag_ne]
  unfold total
  simp only [cell4_eq]

end Cert.FragAlign

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.TileSum.lean ====
/-
  What one grid point of the kernel adds to the running total, read at the extended reals.

  The point at tile-row `i 0` and tile-column `i 1` holds a block of 1024 face rows, a block of 1024 entity rows and the
  1024 row flags of the face block. Entry `(p, q)` of the similarity tile is the inner product `s` of face row `p` and
  entity row `q` over the 256 features. Row `p` sits at position `1024 · i 0 + p` and column `q` at `1024 · i 1 + q`
  of the flattened 8192 × 8192 similarity matrix; their batches are those positions divided by 32. Where the batches
  agree the margin is `1 − 1·s`, elsewhere `1 + 1·s`; it is clipped below at 0, and a clipped margin equal to 1 is
  replaced by 0. Each entry is multiplied by its row's flag, the tile is summed along the lanes and then down the rows,
  and the sum is added to what the output held.
-/
import proofs.«148889_j53231824667134_1_alg».proof.Proof.Gen.KernelIdeal.Skeleton
import proofs.«148889_j53231824667134_1_alg».proof.Proof.BatchWords
import proofs.«148889_j53231824667134_1_alg».proof.Proof.Margin
import proofs.«148889_j53231824667134_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.FragAlign

open Idealize.ShloMosaic Idealize.ShloMosaic.ValueIdx Cert.KernelIdeal Cert.KernelIdeal.Gen

/-- Row `p` of the tile in tile-row `i 0` sits at position `1024 · i 0 + p` of the flattened rows. -/
theorem rowPos (i : grid0.Coords) (p : Fin 1024) (u : Fin 1) :
    k0_pay4 i (ix2 p u) = BitVec.ofNat 32 (1024 * (i 0).val + p.val) := by
  show IntOp.addi (Scalar.muli (BitVec.ofNat 32 (i 0).val) 1024#32) (BitVec.ofNat 32 (0 * 1024 + p.val)) = _
  rw [Nat.zero_mul, Nat.zero_add]
  exact Words.tile_position _ _

/-- Column `q` of the tile in tile-column `i 1` sits at position `1024 · i 1 + q` of the flattened columns. -/
theorem colPos (i : grid0.Coords) (u : Fin 1) (q : Fin 1024) :
    k0_pay5 i (ix2 u q) = BitVec.ofNat 32 (1024 * (i 1).val + q.val) := by
  show IntOp.addi (Scalar.muli (BitVec.ofNat 32 (i 1).val) 1024#32) (BitVec.ofNat 32 (0 * 1024 + q.val)) = _
  rw [Nat.zero_mul, Nat.zero_add]
  exact Words.tile_position _ _

/-- The batch of a row: its position divided by the batch length 32. -/
theorem rowBatch (i : grid0.Coords) (p : Fin 1024) (u : Fin 1) :
    (select (k0_pay7 i) (subi (k0_pay6 i) k0_pay8) (k0_pay6 i) : IVec S1024x1 32) (ix2 p u)
      = BitVec.ofNat 32 ((1024 * (i 0).val + p.val) / 32) := by
  show Words.floorDiv32 (k0_pay4 i (ix2 p u)) = _
  rw [rowPos]
  have h0 : (i 0).val < 8 := (i 0).isLt
  exact Words.floorDiv32_ofNat _ (by have := p.isLt; omega)

/-- The column positions' floored division by 32, as the body computes it from the position vector. -/
def colBatchVec (v17 : IVec S1x1024 32) : IVec S1x1024 32 :=
  select
    (andi
      (cmpi .ne (subi (extui 32 (cmpi .sgt v17 (broadcast S1x1024 0#32)) natLt_1_32) (extui 32 (cmpi .slt v17 (broadcast S1x1024 0#32)) natLt_1_32))
        (broadcast S1x1024 Words.sgn32))
      (cmpi .ne (remsi v17 (broadcast S1x1024 32#32)) (broadcast S1x1024 0#32)))
    (subi (divsi v17 (broadcast S1x1024 32#32)) (broadcast S1x1024 1#32))
    (divsi v17 (broadcast S1x1024 32#32))

/-- The batch of a column. -/
theorem colBatch (i : grid0.Coords) (u : Fin 1) (q : Fin 1024) :
    colBatchVec (k0_pay5 i) (ix2 u q) = BitVec.ofNat 32 ((1024 * (i 1).val + q.val) / 32) := by
  show Words.floorDiv32 (k0_pay5 i (ix2 u q)) = _
  rw [colPos]
  have h1 : (i 1).val < 8 := (i 1).isLt
  exact Words.floorDiv32_ofNat _ (by have := q.isLt; omega)

/-- One entry of the masked margin tile: the same-batch formula `1 − 1·s` where row and column fall in one batch, the
    other-batch formula `1 + 1·s` elsewhere, then clipped. -/
theorem margin_apply (i : grid0.Coords) (v9 : FVec Ideal S1024x1024 .f32) (p q : Fin 1024) :
    k0_pay9 v9 (k0_pay5 i) (k0_pay6 i) (k0_pay7 i) k0_pay8 (ix2 p q)
      = hinge (if (1024 * (i 0).val + p.val) / 32 = (1024 * (i 1).val + q.val) / 32
          then oneW - oneW * v9 (ix2 p q) else oneW + oneW * v9 (ix2 p q)) := by
  have h0 : (i 0).val < 8 := (i 0).isLt
  have h1 : (i 1).val < 8 := (i 1).isLt
  have hp := p.isLt
  have hq := q.isLt
  show hinge (Scalar.select (IntOp.cmpi .eq
      (broadcastTo S1024x1024 (select (k0_pay7 i) (subi (k0_pay6 i) k0_pay8) (k0_pay6 i) : IVec S1024x1 32) broadcasts_S1024x1_S1024x1024 (ix2 p q))
      (broadcastTo S1024x1024 (colBatchVec (k0_pay5 i)) broadcasts_S1x1024_S1024x1024 (ix2 p q)))
      (oneW - oneW * v9 (ix2 p q)) (oneW + oneW * v9 (ix2 p q))) = _
  rw [Cert.Keepdims.broadcastTo_a1_ab_apply, broadcastTo_1b_ab_apply, rowBatch, colBatch,
    Words.select_eq_ofNat _ _ (by omega) (by omega)]

/-- A sum along the lanes of a 1024 × 1024 tile, read at row `p`. -/
theorem laneSum (src : FVec Ideal S1024x1024 .f32) (p : Fin 1024) :
    multiReduction .add [1] S1024 src 0x00000000#32 reduces_S1024x1024_S1024 (.inl rfl) rfl (ix1 p)
      = ∑ q : Fin 1024, src (ix2 p q) :=
  (Ideal.multiReduction_add_single src 0x00000000#32 reduces_S1024x1024_S1024 (.inl rfl) rfl (ix1 p)).trans
    (Finset.sum_congr rfl fun q _ => congrArg src (funext fun c => Fin.ext (by
      match c with
      | ⟨0, _⟩ => rfl
      | ⟨1, _⟩ => rfl)))

/-- A sum down the one column of a 1024 × 1 array. -/
theorem colSum (src : FVec Ideal S1024x1 .f32) :
    multiReduction .add [0] S1 src 0x00000000#32 reduces_S1024x1_S1 (.inl rfl) rfl (ix1 (0 : Fin 1))
      = ∑ p : Fin 1024, src (ix2 p (0 : Fin 1)) :=
  (Ideal.multiReduction_add_single src 0x00000000#32 reduces_S1024x1_S1 (.inl rfl) rfl (ix1 (0 : Fin 1))).trans
    (Finset.sum_congr rfl fun p _ => congrArg src (funext fun c => Fin.ext (by
      match c with
      | ⟨0, _⟩ => rfl
      | ⟨1, _⟩ => rfl)))

/-- What one grid point adds to the running total: the tile's entries, each weighted by its row's flag, summed along
    the lanes and then down the rows. -/
theorem tileSum_apply (v83 : FVec Ideal S1024x1024 .f32) (x2 : FVec Ideal S1024x1 .f32) (xo : FVec Ideal S1x1 .f32) :
    k0_pay1 v83 x2 xo (ix2 (0 : Fin 1) (0 : Fin 1))
      = xo (ix2 (0 : Fin 1) (0 : Fin 1)) + ∑ p : Fin 1024, ∑ q : Fin 1024, v83 (ix2 p q) * x2 (ix2 p (0 : Fin 1)) := by
  unfold k0_pay1
  rw [shapeCast_self, shapeCast_self]
  refine congrArg (xo (ix2 (0 : Fin 1) (0 : Fin 1)) + ·) ?_
  refine (Cert.Keepdims.shapeCast_a_a1_apply _ shapeCasts_S1_S1x1 (0 : Fin 1) (0 : Fin 1)).trans ?_
  refine (colSum _).trans (Finset.sum_congr rfl fun p _ => ?_)
  refine (Cert.Keepdims.shapeCast_a_a1_apply _ shapeCasts_S1024_S1024x1 p (0 : Fin 1)).trans ?_
  refine (laneSum _ p).trans (Finset.sum_congr rfl fun q _ => ?_)
  show v83 (ix2 p q) * broadcastTo S1024x1024 x2 broadcasts_S1024x1_S1024x1024 (ix2 p q) = _
  rw [Cert.Keepdims.broadcastTo_a1_ab_apply]

/-- The similarity product's operand indices: output entry `(p, q)` with contraction coordinate `k` reads the left
    block at `(p, k)` and the right block at `(q, k)`. -/
theorem sim_lhs_0 (j : S1024x1024.Idx) (k : dot_S1024x256_S1024x256_S1024x1024_1_1_0_0_n_n.contr.Idx) :
    (dot_S1024x256_S1024x256_S1024x1024_1_1_0_0_n_n.lhsIdx j k 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem sim_lhs_1 (j : S1024x1024.Idx) (k : dot_S1024x256_S1024x256_S1024x1024_1_1_0_0_n_n.contr.Idx) :
    (dot_S1024x256_S1024x256_S1024x1024_1_1_0_0_n_n.lhsIdx j k 1).val = (k ⟨0, by decide⟩).val :=
  dot_S1024x256_S1024x256_S1024x1024_1_1_0_0_n_n.lhsIdx_val_of_single rfl j k
theorem sim_rhs_0 (j : S1024x1024.Idx) (k : dot_S1024x256_S1024x256_S1024x1024_1_1_0_0_n_n.contr.Idx) :
    (dot_S1024x256_S1024x256_S1024x1024_1_1_0_0_n_n.rhsIdx j k 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem sim_rhs_1 (j : S1024x1024.Idx) (k : dot_S1024x256_S1024x256_S1024x1024_1_1_0_0_n_n.contr.Idx) :
    (dot_S1024x256_S1024x256_S1024x1024_1_1_0_0_n_n.rhsIdx j k 1).val = (k ⟨0, by decide⟩).val :=
  dot_S1024x256_S1024x256_S1024x1024_1_1_0_0_n_n.rhsIdx_val_of_single rfl j k

/-- One entry of the similarity tile: the inner product of a face row and an entity row of the two blocks. -/
theorem simTile_apply (x0 x1 : FVec Ideal S1024x256 .bf16) (p q : Fin 1024) :
    (k0_pay3 (F := Ideal) x0 x1 (ix2 p q) : EReal) = ∑ d : Fin 256, (x0 (ix2 p d) : EReal) * (x1 (ix2 q d) : EReal) := by
  unfold k0_pay3
  rw [shapeCast_self, shapeCast_self]
  refine (Ideal.matmul_constant_zero_apply dot_S1024x256_S1024x256_S1024x1024_1_1_0_0_n_n none x0 x1 (ix2 p q)).trans ?_
  rw [← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q)
      ((ValueIdx.contrEquiv1 dot_S1024x256_S1024x256_S1024x1024_1_1_0_0_n_n 256 rfl rfl).symm k) = ix2 p k :=
    funext fun a => Fin.ext (by
      match a with
      | ⟨0, _⟩ => exact sim_lhs_0 _ _
      | ⟨1, _⟩ => exact (sim_lhs_1 _ _).trans hk)
  have er : dot_S1024x256_S1024x256_S1024x1024_1_1_0_0_n_n.rhsIdx (ix2 p q)
      ((ValueIdx.contrEquiv1 dot_S1024x256_S1024x256_S1024x1024_1_1_0_0_n_n 256 rfl rfl).symm k) = ix2 q k :=
    funext fun a => Fin.ext (by
      match a with
      | ⟨0, _⟩ => exact sim_rhs_0 _ _
      | ⟨1, _⟩ => exact (sim_rhs_1 _ _).trans hk)
  rw [el, er]

/-- The whole contribution of a grid point: what the output held, plus the sum over the tile of the clipped margin of
    each entry times the flag of its row. -/
theorem point_apply (i : grid0.Coords) (x0 x1 : FVec Ideal S1024x256 .bf16) (x2 : FVec Ideal S1024x1 .f32)
    (xo : FVec Ideal S1x1 .f32) :
    k0_pay1 (k0_pay9 (k0_pay3 x0 x1) (k0_pay5 i) (k0_pay6 i) (k0_pay7 i) k0_pay8) x2 xo (ix2 (0 : Fin 1) (0 : Fin 1))
      = xo (ix2 (0 : Fin 1) (0 : Fin 1)) + ∑ p : Fin 1024, ∑ q : Fin 1024,
          hinge (if (1024 * (i 0).val + p.val) / 32 = (1024 * (i 1).val + q.val) / 32
            then oneW - oneW * ∑ d : Fin 256, (x0 (ix2 p d) : EReal) * (x1 (ix2 q d) : EReal)
            else oneW + oneW * ∑ d : Fin 256, (x0 (ix2 p d) : EReal) * (x1 (ix2 q d) : EReal)) * x2 (ix2 p (0 : Fin 1)) := by
  rw [tileSum_apply]
  refine congrArg (xo (ix2 (0 : Fin 1) (0 : Fin 1)) + ·) (Finset.sum_congr rfl fun p _ => Finset.sum_congr rfl fun q _ => ?_)
  rw [margin_apply, simTile_apply]

end Cert.FragAlign

end
-- ==== Proof.PointCases.lean ====
/-
  What the output's staging buffer holds after each grid point. At the first point the body stores a zero, reads it back
  and stores that plus the point's tile sum; at every later point it reads what the point before left and stores that
  plus the tile sum. So after point `n` the buffer holds the running total of the first `n + 1` tile sums, started from the
  stored zero: an induction on the point, never an enumeration of the grid. Nothing here depends on how floats are read.
-/
import proofs.«148889_j53231824667134_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.FragAlign.Cases

open Cert.KernelIdeal Cert.KernelIdeal.Gen

variable {F : FTy → Type} [FloatOps F]

theorem hz : (![0, 0] : Fin 2 → Nat) = fun _ => 0 := funext fun a => by fin_cases a <;> rfl

/-- What a point stores, from its three input blocks and what the output held: the held value plus the tile sum. -/
abbrev pointVal (i : grid0.Coords) (x0 x1 : Vec F S1024x256 .bf16) (x2 : Vec F S1024x1 .f32) (xo : Vec F S1x1 .f32) :
    Vec F S1x1 .f32 :=
  k0_pay1 (k0_pay9 (k0_pay3 x0 x1) (k0_pay5 i) (k0_pay6 i) (k0_pay7 i) k0_pay8) x2 xo

/-- A later point: the body's one covering store is the held value plus the tile sum, its loads reading the whole
    staging buffers. -/
theorem out_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1 .f32) (harg5 : arg5.IsWhole) (hc0 : ¬cond0_0 i)
    (x0 : Vec F S1024x256 .bf16) (x1 : Vec F S1024x256 .bf16) (x2 : Vec F S1024x1 .f32) (xo3 : Vec F S1x1 .f32) :
    out0_B_3 c i arg2 harg2 arg3 harg3 arg4 harg4 arg5 harg5 hc0 x0 x1 x2 xo3 = pointVal i x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz]
  simp only [View.readAt_eq_ld, harg2.read_unread, harg3.read_unread, harg4.read_unread, harg5.read_unread,
    View.ld_unit_zero (S := S1024x256) hz, View.ld_unit_zero (S := S1024x1) hz, View.ld_unit_zero (S := S1x1) hz]

/-- The first point: the zero is stored, read back, and the tile sum added to it. -/
theorem out_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1 .f32) (harg5 : arg5.IsWhole) (hc0 : cond0_0 i)
    (x0 : Vec F S1024x256 .bf16) (x1 : Vec F S1024x256 .bf16) (x2 : Vec F S1024x1 .f32) :
    out0_A_3 c i arg2 harg2 arg3 harg3 arg4 harg4 arg5 harg5 hc0 x0 x1 x2 = pointVal i x0 x1 x2 k0_pay2 := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread,
    View.ld_unit_zero (S := S1024x256) hz, View.ld_unit_zero (S := S1024x1) hz]

variable (m : (ℓ : Loc nD τ sig) → Buf (Elt F) ℓ)

/-- The running total after point `n`: the stored zero plus the first point's tile sum, then each later point's added. -/
def running (c : Dev nD) : (n : ℕ) → n < cfg0.N → Vec F S1x1 .f32
  | 0, h => pointVal (grid0.coords ⟨0, h⟩) (iblk m c 0 ⟨0, h⟩) (iblk m c 1 ⟨0, h⟩) (iblk m c 2 ⟨0, h⟩) k0_pay2
  | n + 1, h => pointVal (grid0.coords ⟨n + 1, h⟩) (iblk m c 0 ⟨n + 1, h⟩) (iblk m c 1 ⟨n + 1, h⟩) (iblk m c 2 ⟨n + 1, h⟩)
      (running c n (Nat.lt_of_succ_lt h))

/-- The output's staging buffer after point `n` holds the running total. -/
theorem outsAt_eq (c : Dev nD) : ∀ (n : ℕ) (h : n < cfg0.N), outsAt0 m c n h = running m c n h
  | 0, h => (outsAt0_A m c ⟨0, h⟩ rfl).trans (out_A ..)
  | n + 1, h => by
    have hN : cfg0.N = 64 := N_0
    have hB : ¬(⟨n + 1, h⟩ : Fin cfg0.N).val % 64 = 0 := by dsimp only; omega
    rw [outsAt0_B m c ⟨n + 1, h⟩ hB, out_B]
    show pointVal _ _ _ _ (outsAt0 m c n _) = pointVal _ _ _ _ (running m c n _)
    rw [outsAt_eq c n]

end Cert.FragAlign.Cases

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.KernelValue.lean ====
/-
  The idealized kernel's result as a value.

  The region finds three arrays written by the lines before it: the faces and the entities flattened to 8192 rows of 256
  features (the two leading axes of each argument merged; the change of float format is the identity on extended
  reals), and a column of 8192 row flags. Grid point `t` of the 8 × 8 grid, in row-major order, reads face rows
  `1024 · (t / 8) …`, entity rows `1024 · (t mod 8) …` and the flags of those face rows, and adds its tile's sum to the
  one output cell; the cell is written back once, after the last point, when it holds the stored zero plus all 64 tile
  sums. The 64 tiles cover the 8192 × 8192 matrix exactly once, and flattened rows `32 · b + f`, `32 · k + n` are rows
  `(b, f)`, `(k, n)` of the arguments with batches `b` and `k`; so that total is the loss's single sum. The lines after
  the region read the cell as a scalar and divide it by the word of 256.
-/
import proofs.«148889_j53231824667134_1_alg».proof.Proof.Gen.KernelIdeal.Frame
import proofs.«148889_j53231824667134_1_alg».proof.Proof.TileSum
import proofs.«148889_j53231824667134_1_alg».proof.Proof.PointCases
import proofs.«148889_j53231824667134_1_alg».proof.Proof.GridSums
import proofs.«148889_j53231824667134_1_alg».proof.Proof.LibFlatten
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.FragAlign.KernelValue

open Cert.KernelIdeal Cert.KernelIdeal.Gen Cert.FragAlign

variable (m : (ℓ : Loc nD τ sig) → Buf (Elt Ideal) ℓ) (ρ : Dev nD → PrngReg)

theorem hK : 8 * 1024 = 8192 := by decide

/-- The last grid point, the only one after which the output block is written back. -/
abbrev tLast : Fin cfg0.N := ⟨63, by rw [show cfg0.N = 64 from N_0]; decide⟩

/-- The flattened faces, entities and row flags as the region finds them. -/
def faceAt (c : Dev nD) (R : Fin 8192) (d : Fin 256) : EReal := V m c main_v7 (ix2 R d)
def entAt (c : Dev nD) (C : Fin 8192) (d : Fin 256) : EReal := V m c main_v8 (ix2 C d)
def flagAt (c : Dev nD) (R : Fin 8192) : EReal := V m c main_v6 (ix2 R (0 : Fin 1))

/-- One entry of the masked, clipped and flagged similarity matrix, at flattened row `R` and column `C`. -/
def cellK (c : Dev nD) (R C : Fin 8192) : EReal :=
  hinge (if R.val / 32 = C.val / 32
    then oneW - oneW * ∑ d : Fin 256, faceAt m c R d * entAt m c C d
    else oneW + oneW * ∑ d : Fin 256, faceAt m c R d * entAt m c C d) * flagAt m c R

/-- The sum of the `t`-th tile. -/
def tileN (c : Dev nD) (t : ℕ) : EReal :=
  ∑ p : Fin 1024, ∑ q : Fin 1024, cellK m c (Sums.pos2 hK (Sums.tileRow t) p) (Sums.pos2 hK (Sums.tileCol t) q)

/-- The face block of point `t` is rows `1024 · (t / 8 mod 8) …` of the flattened faces. -/
theorem iblk0_apply (c : Dev nD) (t : Fin cfg0.N) (p : Fin 1024) (d : Fin 256) :
    (iblk m c 0 t : Vec Ideal S1024x256 .bf16) (ix2 p d) = faceAt m c (Sums.pos2 hK (Sums.tileRow t.val) p) d := by
  have hi : win0_0.index t 0 = t.val / 8 % 8 ∧ win0_0.index t 1 = 0 :=
    (by decide +kernel : ∀ t : Fin grid0.N, win0_0.index t 0 = t.val / 8 % 8 ∧ win0_0.index t 1 = 0) t
  unfold iblk
  rw [View.read_apply]
  show V m c main_v7 _ = V m c main_v7 _
  congr 1
  funext a
  apply Fin.ext
  match a with
  | ⟨0, _⟩ => show win0_0.index t 0 * 1024 + 1 * p.val = 1024 * (t.val / 8 % 8) + p.val; rw [hi.1]; omega
  | ⟨1, _⟩ => show win0_0.index t 1 * 256 + 1 * d.val = d.val; rw [hi.2]; omega

/-- The entity block of point `t` is rows `1024 · (t mod 8) …` of the flattened entities. -/
theorem iblk1_apply (c : Dev nD) (t : Fin cfg0.N) (q : Fin 1024) (d : Fin 256) :
    (iblk m c 1 t : Vec Ideal S1024x256 .bf16) (ix2 q d) = entAt m c (Sums.pos2 hK (Sums.tileCol t.val) q) d := by
  have hi : win0_1.index t 0 = t.val % 8 ∧ win0_1.index t 1 = 0 :=
    (by decide +kernel : ∀ t : Fin grid0.N, win0_1.index t 0 = t.val % 8 ∧ win0_1.index t 1 = 0) t
  unfold iblk
  rw [View.read_apply]
  show V m c main_v8 _ = V m c main_v8 _
  congr 1
  funext a
  apply Fin.ext
  match a with
  | ⟨0, _⟩ => show win0_1.index t 0 * 1024 + 1 * q.val = 1024 * (t.val % 8) + q.val; rw [hi.1]; omega
  | ⟨1, _⟩ => show win0_1.index t 1 * 256 + 1 * d.val = d.val; rw [hi.2]; omega

/-- The flag block of point `t` is the flags of the face block's rows. -/
theorem iblk2_apply (c : Dev nD) (t : Fin cfg0.N) (p : Fin 1024) :
    (iblk m c 2 t : Vec Ideal S1024x1 .f32) (ix2 p (0 : Fin 1)) = flagAt m c (Sums.pos2 hK (Sums.tileRow t.val) p) := by
  have hi : win0_2.index t 0 = t.val / 8 % 8 ∧ win0_2.index t 1 = 0 :=
    (by decide +kernel : ∀ t : Fin grid0.N, win0_2.index t 0 = t.val / 8 % 8 ∧ win0_2.index t 1 = 0) t
  unfold iblk
  rw [View.read_apply]
  show V m c main_v6 _ = V m c main_v6 _
  congr 1
  funext a
  apply Fin.ext
  match a with
  | ⟨0, _⟩ => show win0_2.index t 0 * 1024 + 1 * p.val = 1024 * (t.val / 8 % 8) + p.val; rw [hi.1]; omega
  | ⟨1, _⟩ => show win0_2.index t 1 * 1 + 1 * 0 = 0; rw [hi.2]

/-- A grid point adds its tile's sum to what the output held. -/
theorem point_eq (c : Dev nD) (t : Fin cfg0.N) (xo : FVec Ideal S1x1 .f32) :
    Cases.pointVal (grid0.coords t) (iblk m c 0 t) (iblk m c 1 t) (iblk m c 2 t) xo (ix2 (0 : Fin 1) (0 : Fin 1))
      = xo (ix2 (0 : Fin 1) (0 : Fin 1)) + tileN m c t.val := by
  have e0 : (grid0.coords t 0).val = t.val / 8 % 8 := by
    show t.val / grid0.stride 0 % 8 = _
    rw [show grid0.stride 0 = 8 from by decide]
  have e1 : (grid0.coords t 1).val = t.val % 8 := by
    show t.val / grid0.stride 1 % 8 = _
    rw [show grid0.stride 1 = 1 from by decide, Nat.div_one]
  refine (point_apply (grid0.coords t) (iblk m c 0 t) (iblk m c 1 t) (iblk m c 2 t) xo).trans ?_
  refine congrArg (xo (ix2 (0 : Fin 1) (0 : Fin 1)) + ·) ?_
  unfold tileN
  refine Finset.sum_congr rfl fun p _ => Finset.sum_congr rfl fun q _ => ?_
  unfold cellK
  rw [iblk2_apply, e0, e1]
  simp only [iblk0_apply, iblk1_apply]
  rfl

/-- After point `n` the output holds the stored zero plus the first `n + 1` tile sums. -/
theorem running_apply (c : Dev nD) : ∀ (n : ℕ) (h : n < cfg0.N),
    Cases.running m c n h (ix2 (0 : Fin 1) (0 : Fin 1)) = zeroW + ∑ t ∈ Finset.range (n + 1), tileN m c t
  | 0, h => by
    show Cases.pointVal (grid0.coords ⟨0, h⟩) (iblk m c 0 ⟨0, h⟩) (iblk m c 1 ⟨0, h⟩) (iblk m c 2 ⟨0, h⟩) (k0_pay2 (F := Ideal)) _ = _
    rw [point_eq m c ⟨0, h⟩ (k0_pay2 (F := Ideal)), Finset.sum_range_one]
    rfl
  | n + 1, h => by
    show Cases.pointVal (grid0.coords ⟨n + 1, h⟩) (iblk m c 0 ⟨n + 1, h⟩) (iblk m c 1 ⟨n + 1, h⟩) (iblk m c 2 ⟨n + 1, h⟩)
      (Cases.running m c n (Nat.lt_of_succ_lt h)) _ = _
    rw [point_eq m c ⟨n + 1, h⟩ (Cases.running m c n (Nat.lt_of_succ_lt h)), running_apply c n (Nat.lt_of_succ_lt h),
      Finset.sum_range_succ _ (n + 1), add_assoc]

/-- What the output array holds when the region ends: the running total after the last point. -/
abbrev result (c : Dev nD) : Buf (Elt Ideal) ((c : Thread nD τ).loc main_v9) := Cases.running m c 63 tLast.isLt

/-- The one write-back, after the last point, writes the running total: the block is the whole 1 × 1 array. -/
theorem flushed_eq (c : Dev nD) (t : Fin cfg0.N) (hf : (cfg0.win 3).flush t = true) :
    (dats m 0 c).flushed 3 t = ((cfg0.win 3).blk t).view.read (Elt Ideal) (result m c) := by
  have hN : cfg0.N = 64 := N_0
  have h63 : t.val = 63 := by have := (flush0_3 t).mp hf; have := t.isLt; omega
  obtain rfl : t = tLast := Fin.ext h63
  show (cfg0.win 3).cut (grid0.coords tLast) ((dats m 0 c).after 3 tLast) = _
  rw [after0_3, Cases.outsAt_eq]
  have hz' : (fun a => win0_3.index tLast a * main_v9.ty.shape.size a) = fun _ => 0 := funext fun a => by fin_cases a <;> decide
  exact (Memref.read_access_unit_zero (Elt Ideal) main_v9 hz' (fun a => by rw [congrFun hz' a]; simp) (result m c)).symm

/-- So the output array ends at the running total after the last point. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v9).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-- The sum of all 64 tiles, started from the stored zero. -/
def kernelTotal (c : Dev nD) : EReal := zeroW + ∑ t ∈ Finset.range 64, tileN m c t

/-- The lines after the region: the 1 × 1 output read as a scalar and divided by the word of 256. -/
theorem tail_eq (c : Dev nD) :
    Pipeline.afterTail₀ cfgs (dats m) 0 (V0 m) [hostOps1] c main_v11
      = fun _ => Ideal.div (kernelTotal m c) (Ideal.ofBits .f32 0x43800000#32) := by
  unfold Pipeline.afterTail₀
  show StableHlo.after hostOps1 _ (Proc.devRef .tc main_v11) = _
  after_results
  funext i
  show Ideal.div (shapeCast S_ (Pipeline.withArrays (cfgs 0).spec c (V0 m c) (fun w => (dats m 0 c).arrAt w (cfgs 0).N)
      (Proc.devRef .tc main_v9)) shapeCasts_S1x1_S_ i) _ = _
  refine congrArg (Ideal.div · _) ?_
  rw [shapeCast_apply _ shapeCasts_S1x1_S_ i (ix2 (0 : Fin 1) (0 : Fin 1)) (by
    have h1 : (S1x1.rowMajor (ix2 (0 : Fin 1) (0 : Fin 1))).val < 1 := (S1x1.rowMajor _).isLt
    have h2 : (S_.rowMajor i).val < 1 := (S_.rowMajor i).isLt
    omega)]
  rw [Pipeline.withArrays_arr spec0 launch0.win.arr_inj c (V0 m c) (fun w => (dats m 0 c).arrAt w (cfgs 0).N) 3]
  show (dats m 0 c).arrAt 3 cfg0.N (ix2 (0 : Fin 1) (0 : Fin 1)) = _
  rw [final_o]
  exact running_apply m c 63 tLast.isLt

theorem hBF : 256 * 32 = 8192 := by decide

/-- The flattened faces are the first argument with its two leading axes merged (the change of format to bf16 is the
    identity on extended reals). -/
theorem V_faces (c : Dev nD) :
    (V m c main_v7 : S8192x256.Idx → EReal)
      = shapeCast S8192x256 (m ((c : Thread nD τ).loc main_arg0)) shapeCasts_S256x32x256_S8192x256 := by
  show StableHlo.after hostOps0 (fun b => m (c, b)) (Proc.devRef .tc main_v7) = _
  after_results
  rfl

/-- The flattened entities likewise, from the second argument. -/
theorem V_ents (c : Dev nD) :
    (V m c main_v8 : S8192x256.Idx → EReal)
      = shapeCast S8192x256 (m ((c : Thread nD τ).loc main_arg1)) shapeCasts_S256x32x256_S8192x256 := by
  show StableHlo.after hostOps0 (fun b => m (c, b)) (Proc.devRef .tc main_v8) = _
  after_results
  rfl

/-- The row flags: the flattened faces summed along the features, compared with zero, as a column. -/
theorem V_flags (c : Dev nD) :
    (V m c main_v6 : S8192x1.Idx → EReal)
      = shapeCast S8192x1 (uitofp (F := Ideal) .f32 (cmpf .une
          (Host.reduceAdd (F := Ideal) (shapeCast S8192x256 (m ((c : Thread nD τ).loc main_arg0)) shapeCasts_S256x32x256_S8192x256)
            (constant (F := Ideal) S_ .f32 0x00000000#32) reducesTo_S8192x256_S8192_d1 h_S_)
          (broadcastInDim S8192 ![] bcast_S_S8192 (constant (F := Ideal) S_ .f32 0x00000000#32)))) shapeCasts_S8192_S8192x1 := by
  show StableHlo.after hostOps0 (fun b => m (c, b)) (Proc.devRef .tc main_v6) = _
  after_results
  rfl

/-- Flattened row `32 · b + f` of the faces is row `(b, f)` of the first argument. -/
theorem faceAt_eq (c : Dev nD) (b : Fin 256) (f : Fin 32) (d : Fin 256) :
    faceAt m c (Sums.pos2 hBF b f) d = m ((c : Thread nD τ).loc main_arg0) (ix3 b f d) := by
  show (V m c main_v7 : S8192x256.Idx → EReal) (ix2 (Sums.pos2 hBF b f) d) = _
  rw [V_faces]
  exact Cert.LibFlatten.merge_apply _ _ b f d _ rfl

theorem entAt_eq (c : Dev nD) (k : Fin 256) (n : Fin 32) (d : Fin 256) :
    entAt m c (Sums.pos2 hBF k n) d = m ((c : Thread nD τ).loc main_arg1) (ix3 k n d) := by
  show (V m c main_v8 : S8192x256.Idx → EReal) (ix2 (Sums.pos2 hBF k n) d) = _
  rw [V_ents]
  exact Cert.LibFlatten.merge_apply _ _ k n d _ rfl

/-- The flag of flattened row `32 · b + f` is the flag of face row `(b, f)`. -/
theorem flagAt_eq (c : Dev nD) (b : Fin 256) (f : Fin 32) :
    flagAt m c (Sums.pos2 hBF b f) = flag (m ((c : Thread nD τ).loc main_arg0)) b f := by
  show (V m c main_v6 : S8192x1.Idx → EReal) (ix2 (Sums.pos2 hBF b f) (0 : Fin 1)) = _
  rw [V_flags]
  refine (Cert.Keepdims.shapeCast_a_a1_apply _ shapeCasts_S8192_S8192x1 (Sums.pos2 hBF b f) (0 : Fin 1)).trans ?_
  unfold flag
  simp only [uitofp, cmpf, Host.reduceAdd, Ideal.hostReduceAdd_def]
  rw [Ideal.hostReduceAdd_single reducesTo_S8192x256_S8192_d1 (by decide)]
  refine congrArg₂ (fun s z => FloatOps.uitofp (F := Ideal) .f32 (FloatOps.cmpf (F := Ideal) (φ := .f32) .une (zeroW + s) z))
    (Finset.sum_congr rfl fun k _ => ?_) rfl
  exact (congrArg (shapeCast S8192x256 (m ((c : Thread nD τ).loc main_arg0)) shapeCasts_S256x32x256_S8192x256)
    (funext fun a => Fin.ext (by
      match a with
      | ⟨0, _⟩ => rfl
      | ⟨1, _⟩ => rfl))).trans (Cert.LibFlatten.merge_apply _ _ b f k (Sums.pos2 hBF b f) rfl)

/-- At flattened positions `32 · b + f` and `32 · k + n` the kernel's entry is the loss's term at `(b, f, k, n)`: the
    positions' batches are `b` and `k`. -/
theorem cellK_eq (c : Dev nD) (b : Fin 256) (f : Fin 32) (k : Fin 256) (n : Fin 32) :
    cellK m c (Sums.pos2 hBF b f) (Sums.pos2 hBF k n)
      = cell4 (m ((c : Thread nD τ).loc main_arg0)) (m ((c : Thread nD τ).loc main_arg1)) b f k n := by
  have hc : ((Sums.pos2 hBF b f).val / 32 = (Sums.pos2 hBF k n).val / 32) ↔ b = k := by
    simp only [Sums.pos2_val]
    have hf := f.isLt; have hn := n.isLt
    constructor
    · intro h; apply Fin.ext; omega
    · rintro rfl; omega
  unfold cellK cell4 dot4
  rw [if_congr hc rfl rfl, flagAt_eq]
  simp only [faceAt_eq, entAt_eq]

/-- The kernel's 64 tile sums together are the loss's single sum. -/
theorem kernelTotal_eq (c : Dev nD) :
    kernelTotal m c = total (m ((c : Thread nD τ).loc main_arg0)) (m ((c : Thread nD τ).loc main_arg1)) := by
  unfold kernelTotal tileN
  rw [Sums.sum_tiles (cellK m c), Sums.sum_pos2 hBF, zeroW_eq, zero_add]
  unfold total
  refine Finset.sum_congr rfl fun b _ => Finset.sum_congr rfl fun f _ => ?_
  rw [Sums.sum_pos2 hBF]
  exact Finset.sum_congr rfl fun k _ => Finset.sum_congr rfl fun n _ => cellK_eq m c b f k n

/-- The kernel's run, read: the result is the loss's single sum divided by the word of 256; the arguments end unchanged. -/
theorem run : θ_run defs (onTc (τ := τ) (main (F := Ideal))) ⟨m, fun _ => 0, ρ⟩ fun r => ∀ c : Dev nD,
      r.2.mem ((c : Thread nD τ).loc main_v11)
          = (fun _ => Ideal.div (total (m ((c : Thread nD τ).loc main_arg0)) (m ((c : Thread nD τ).loc main_arg1)))
              (Ideal.ofBits .f32 0x43800000#32))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v11 (Pipeline.mem_restRefs_of main_v11 (by decide) (by decide))).trans
        ((tail_eq m c).trans (by rw [kernelTotal_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.FragAlign.KernelValue

end
-- ==== Proof.LibIdxSums.lean ====
/-
  A sum over the index set of a rank-3 or rank-4 array is the iterated sum over its coordinates, first axis outermost
  (the rank-2 form is the library's `ValueIdx.sum_idx2`). Any commutative additive monoid.
-/
import Idealize.ShloMosaic.Lib.ValueIdx

namespace Cert.LibIdxSums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibIdxSums
-- ==== Proof.RefValue.lean ====
/-
  The reference's result, read one operation at a time at the extended reals. Its same-batch product, read at
  `(b, f, n)`, is the inner product of face row `(b, f)` and entity row `(b, n)`; the term built on it — `1 − 1·s`, clipped,
  the value 1 replaced by 0, times the row's flag — is the same-batch term of the loss. Its all-pairs product, read at
  `(b, f, k, n)`, is the inner product of face row `(b, f)` and entity row `(k, n)`; the term built on it, with `1 + 1·s`,
  times the flag and times the off-diagonal weight, is the other-batch term. Each of the two total sums starts from the
  zero word and runs over every index of its array, that is, over every coordinate tuple; their sum is the loss's single
  sum, and the result is that divided by the word of 256.
-/
import proofs.«148889_j53231824667134_1_alg».proof.Proof.Gen.ReferenceIdeal.Read
import proofs.«148889_j53231824667134_1_alg».proof.Proof.Margin
import proofs.«148889_j53231824667134_1_alg».proof.Proof.LibIdxSums

noncomputable section

namespace Cert.FragAlign.RefValue

open Cert.ReferenceIdeal Cert.ReferenceIdeal.Read Cert.FragAlign Idealize.ShloMosaic Idealize.ShloMosaic.ValueIdx

theorem pos_apply (X0 X1 : Arr3) (b : Fin 256) (f : Fin 32) (n : Fin 32) :
    val_main_v15 (F := Ideal) X0 X1 (ix3 b f n) = posTerm X0 X1 b f n := by
  have hl : ∀ k : Fin 256, lidx_main_v4 (ix3 b f n) k = ix3 b f k := fun k => funext fun a => by
    match a with
    | ⟨0, _⟩ => rfl
    | ⟨1, _⟩ => rfl
    | ⟨2, _⟩ => rfl
  have hr : ∀ k : Fin 256, ridx_main_v4 (ix3 b f n) k = ix3 b n k := fun k => funext fun a => by
    match a with
    | ⟨0, _⟩ => rfl
    | ⟨1, _⟩ => rfl
    | ⟨2, _⟩ => rfl
  have hf : ∀ k : Fin 256, idx_main_v0 (idx_main_v13 (idx_main_v14 (ix3 b f n))) k = ix3 b f k := fun k => funext fun a => by
    match a with
    | ⟨0, _⟩ => rfl
    | ⟨1, _⟩ => rfl
    | ⟨2, _⟩ => rfl
  simp only [val_main_v15_apply, val_main_v12_apply, val_main_v11_apply, val_main_v9_apply, val_main_v8_apply,
    val_main_v7_apply, val_main_cst_2_apply, val_main_v6_apply, val_main_v5_apply, val_main_cst_1_apply, val_main_v4_apply,
    val_main_call0_v0_apply, val_main_call0_cst_apply, val_main_v10_apply, val_main_cst_3_apply, val_main_call1_v1_apply,
    val_main_call1_v0_apply, val_main_cst_4_apply, val_main_v14_apply, val_main_v13_apply, val_main_v3_apply,
    val_main_v2_apply, val_main_v0_apply, val_main_cst_apply, val_main_v1_apply, val_main_cst_0_apply, hl, hr, hf]
  rfl

theorem neg_apply (X0 X1 : Arr3) (b : Fin 256) (f : Fin 32) (k : Fin 256) (n : Fin 32) :
    val_main_v39 (F := Ideal) X0 X1 (ix4 b f k n) = negTerm X0 X1 b f k n * offDiag b k := by
  have hl : ∀ d : Fin 256, lidx_main_v17 (ix4 b f k n) d = ix3 b f d := fun d => funext fun a => by
    match a with
    | ⟨0, _⟩ => rfl
    | ⟨1, _⟩ => rfl
    | ⟨2, _⟩ => rfl
  have hr : ∀ d : Fin 256, ridx_main_v17 (ix4 b f k n) d = ix3 k n d := fun d => funext fun a => by
    match a with
    | ⟨0, _⟩ => rfl
    | ⟨1, _⟩ => rfl
    | ⟨2, _⟩ => rfl
  have hf : ∀ d : Fin 256, idx_main_v0 (idx_main_v34 (idx_main_v35 (ix4 b f k n))) d = ix3 b f d := fun d => funext fun a => by
    match a with
    | ⟨0, _⟩ => rfl
    | ⟨1, _⟩ => rfl
    | ⟨2, _⟩ => rfl
  simp only [val_main_v39_apply, val_main_v36_apply, val_main_v25_apply, val_main_v24_apply, val_main_v22_apply,
    val_main_v21_apply, val_main_v20_apply, val_main_cst_7_apply, val_main_v19_apply, val_main_v18_apply, val_main_cst_6_apply,
    val_main_v17_apply, val_main_call2_v0_apply, val_main_call2_cst_apply, val_main_v23_apply, val_main_cst_8_apply,
    val_main_call3_v1_apply, val_main_call3_v0_apply, val_main_cst_9_apply, val_main_v35_apply, val_main_v34_apply,
    val_main_v3_apply, val_main_v2_apply, val_main_v0_apply, val_main_cst_apply, val_main_v1_apply, val_main_cst_0_apply,
    val_main_v38_apply, val_main_v37_apply, val_main_v33_apply, val_main_v32_apply, val_main_cst_10_apply, val_main_v31_apply,
    val_main_v30_apply, val_main_v29_apply, val_main_v26_apply, val_main_v28_apply, val_main_c_apply, val_main_v27_apply,
    hl, hr, hf]
  rfl

/-- The reference's result: the single sum divided by the word of 256. -/
theorem ref_value (X0 X1 : Arr3) (i : S_.Idx) :
    val_main_v42 (F := Ideal) X0 X1 i = Ideal.div (total X0 X1) (Ideal.ofBits .f32 0x43800000#32) := by
  rw [val_main_v42_apply, val_main_v41_apply, val_main_v16_apply, val_main_v40_apply, val_main_cst_12_apply,
    val_main_cst_5_apply, val_main_cst_11_apply, Cert.LibIdxSums.sum_idx3, Cert.LibIdxSums.sum_idx4]
  simp only [pos_apply, neg_apply]
  show Ideal.div ((zeroW + _) + (zeroW + _)) _ = _
  rw [pos_add_neg]
  rfl

end Cert.FragAlign.RefValue

end
-- ==== Proof.lean ====
/-
  The certificate of a fragment-alignment loss: for faces and entities of shape [256 batches, 32 rows, 256 features],
  every face row is scored against every entity row by their inner product `s`; a pair in the same batch contributes
  `hinge (1 − 1·s)`, a pair in different batches `hinge (1 + 1·s)`, where `hinge x` is `max x 0` with the value 1 replaced
  by 0; each contribution is multiplied by the face row's flag (1 when the row's features do not sum to zero), all
  contributions are summed, and the sum is divided by 256.

  The kernel flattens both arrays to 8192 rows, walks the 8192 × 8192 score matrix in 64 tiles of 1024 × 1024, decides
  "same batch" per entry by comparing the row's and the column's position divided by 32, and accumulates the tiles'
  sums into one output cell, written back after the last tile. The reference computes the same-batch scores and the
  all-pairs scores separately and removes the diagonal of the latter with the weight `1 − [b = k]`. On the extended reals
  the two are rearrangements of one finite sum: addition is commutative and associative, and `x · 0 = 0`, `x · 1 = x` for
  every extended real, so no finiteness of the inputs is used.

  The three frame claims are the generated frame runs (the reference's is its generated run with the result dropped);
  the idealization rewrote nothing, so `preserves` is trivial; `algebraic` pairs the kernel's run read as a value with the
  reference's run read as a value, both at the loss's single sum divided by the word of 256.
-/
import proofs.«148889_j53231824667134_1_alg».proof.Defs
import proofs.«148889_j53231824667134_1_alg».proof.Proof.Gen.Kernel
import proofs.«148889_j53231824667134_1_alg».proof.Proof.Gen.Kernel.Skeleton
import proofs.«148889_j53231824667134_1_alg».proof.Proof.Gen.Kernel.Launch
import proofs.«148889_j53231824667134_1_alg».proof.Proof.Gen.Kernel.Points
import proofs.«148889_j53231824667134_1_alg».proof.Proof.Gen.Kernel.Frame
import proofs.«148889_j53231824667134_1_alg».proof.Proof.Gen.KernelIdeal
import proofs.«148889_j53231824667134_1_alg».proof.Proof.Gen.KernelIdeal.Skeleton
import proofs.«148889_j53231824667134_1_alg».proof.Proof.Gen.KernelIdeal.Launch
import proofs.«148889_j53231824667134_1_alg».proof.Proof.Gen.KernelIdeal.Points
import proofs.«148889_j53231824667134_1_alg».proof.Proof.Gen.KernelIdeal.Frame
import proofs.«148889_j53231824667134_1_alg».proof.Proof.Gen.ReferenceIdeal
import proofs.«148889_j53231824667134_1_alg».proof.Proof.Gen.Pre_finite_inputs
import proofs.«148889_j53231824667134_1_alg».proof.Proof.Gen.ReferenceIdeal.Run
import proofs.«148889_j53231824667134_1_alg».proof.Proof.Gen.ReferenceIdeal.Read
import proofs.«148889_j53231824667134_1_alg».proof.Proof.KernelValue
import proofs.«148889_j53231824667134_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the loss's single sum divided by the word of 256. -/
theorem algebraic : Cert.algebraic_KernelIdeal_ReferenceIdeal := by
  intro m ρ m' ρ' _ hagree
  refine ⟨_, Cert.FragAlign.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2]
  funext i
  exact Cert.FragAlign.RefValue.ref_value _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
